-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S10000x1 : S_.BroadcastsInDim S10000x1 (![] : Fin 0 → Fin S10000x1.rank)
  reducesTo_S10000x1_S_d0_1 : S10000x1.ReducesTo [0, 1] S_

variable [Facts]

def fn_part1 {F : FTy → Type} [FloatOps F] (main_arg4 : FVec F S10000x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S10000x1 .f32 := Host.absf main_arg4
  let main_cst_6 : FVec F S_ .f32 := constant S_ .f32 0x7F800000#32
  let main_v20 : FVec F S10000x1 .f32 := broadcastInDim S10000x1 ![] bcast_S_S10000x1 main_cst_6
  let main_v21 : IVec S10000x1 1 := cmpf .olt main_v19 main_v20
  let main_c_7 : IVec S_ 1 := constantI S_ 1 1#1
  let main_v22 : IVec S_ 1 := (fun x v => Host.reduce IntOp.andi x v reducesTo_S10000x1_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S10000x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S400x10000 : Shape := ⟨2, ![400, 10000]⟩
abbrev S400x1 : Shape := ⟨2, ![400, 1]⟩
abbrev S400x128 : Shape := ⟨2, ![400, 128]⟩

abbrev nBuf : Space → Nat
  | .hbm => 8
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x1, .f32⟩
  | .hbm, ⟨5, _⟩ => ⟨S10000x128, .f32⟩
  | .hbm, ⟨6, _⟩ => ⟨S10000x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S400x1, .f32⟩
  | .local _ .vmem, ⟨7, _⟩ => ⟨S400x1, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S10000x128, .f32⟩
  | .local _ .vmem, ⟨13, _⟩ => ⟨S400x128, .f32⟩
  | .local _ .vmem, ⟨14, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x1_S400x1_0_0 : ∀ a, (![0, 0] : Fin 2 → Nat) a + S400x1.size a ≤ S400x1.size a
  h_S400x1 : 0 < S400x1.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x1, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibRowBlocks.lean ====
/-
  Row blocks of a product and of a bias row, at the extended reals.

  For arrays read as functions of a (row, column) index into the extended reals:

    mm x w (p, q)      = Σ_k x (p, k) · w (k, q)          -- an M x K by K x N product
    addRow  a b (p, q) = a (p, q) + b (0, q)               -- a 1 x N row added to every row
    reluRow a b (p, q) = max (a (p, q) + b (0, q)) 0       -- the same, then the maximum with zero

  and, for a computation that works on the rows in blocks: if what is computed on a block of Mb rows is the product (or
  the pointwise formula) of the blocks it loaded, each loaded block being its array read at rows o .. o + Mb (all
  columns; the second operand of a product read whole), then the result block is the whole-array function read at the
  same rows (blk_mm, blk_row).  The blocks' positions enter only through the coordinates of their embeddings, so the
  lemmas serve any row-tiled pipeline: instantiate the embeddings at the windows' blocks and discharge the six coordinate
  facts by arithmetic.
-/
import Idealize.ShloMosaic.PureOps.Ideal
import Idealize.ShloMosaic.Lib.ValueIdx

noncomputable section

open scoped BigOperators

namespace Idealize.ShloMosaic.ValueIdx

open Idealize.ShloMosaic

/-- The product of an M x K array with a K x N array: entry (p, q) is the sum over the inner position. -/
def mm (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 x N row added to every row of an M x N array. -/
def addRow (M N : ℕ) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A 1 x N row added to every row of an M x N array, then the maximum with zero. -/
def reluRow (M N : ℕ) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem mm_ix2 (M K N : ℕ) (x w) (p : Fin M) (q : Fin N) : mm M K N x w (ix2 p q) = ∑ k : Fin K, x (ix2 p k) * w (ix2 k q) := rfl
theorem addRow_ix2 (M N : ℕ) (a b) (p : Fin M) (q : Fin N) : addRow M N a b (ix2 p q) = a (ix2 p q) + b (ix2 (0 : Fin 1) q) := rfl
theorem reluRow_ix2 (M N : ℕ) (a b) (p : Fin M) (q : Fin N) : reluRow M N a b (ix2 p q) = max (a (ix2 p q) + b (ix2 (0 : Fin 1) q)) 0 := rfl

/-! ## A block of rows is the block of the whole-array function

  A region cuts the rows into blocks; point t works on rows o .. o + Mb of its arrays (o the block's first row), all
  columns.  If what the body computes on the block is the product (or the bias formula) of the blocks it loaded, and each
  loaded block is its array read at the block's rows, then the result block is the whole-array product (or bias formula)
  read at the block's rows.  The blocks' positions enter only through the coordinates of their embeddings. -/

theorem hz2 : (![0, 0] : Fin 2 → Nat) = fun _ => 0 := funext fun a => by fin_cases a <;> rfl

/-- A product block: rows o .. o + Mb of x · w are (rows o .. o + Mb of x) · w. -/
theorem blk_mm {Mb M K N : ℕ} (pay : (⟨2, ![Mb, N]⟩ : Shape).Idx → EReal)
    (x0 : (⟨2, ![Mb, K]⟩ : Shape).Idx → EReal) (x1 : (⟨2, ![K, N]⟩ : Shape).Idx → EReal)
    (hpay : ∀ (p : Fin Mb) (q : Fin N), pay (ix2 p q) = ∑ k : Fin K, x0 (ix2 p k) * x1 (ix2 k q))
    (A0 : (⟨2, ![M, K]⟩ : Shape).Idx → EReal) (A1 : (⟨2, ![K, N]⟩ : Shape).Idx → EReal)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : (⟨2, ![Mb, N]⟩ : Shape).Idx) : pay j = mm M K N A0 A1 (e2 j) := by
  obtain ⟨p, q, rfl⟩ : ∃ (p : Fin Mb) (q : Fin N), j = ix2 p q := ⟨j 0, j 1, eq_ix2 j⟩
  rw [hpay]
  show _ = ∑ k : Fin K, A0 (ix2 ((e2 (ix2 p q)) 0) k) * A1 (ix2 k ((e2 (ix2 p q)) 1))
  refine Finset.sum_congr rfl fun k _ => ?_
  rw [hx0, hx1]
  have a0 : e0 (ix2 p k) = ix2 ((e2 (ix2 p q)) 0) k := funext fun a => Fin.ext (by
    match a with
    | ⟨0, _⟩ => exact (h00 (ix2 p k)).trans (h20 (ix2 p q)).symm
    | ⟨1, _⟩ => exact h01 (ix2 p k))
  have a1 : e1 (ix2 k q) = ix2 k ((e2 (ix2 p q)) 1) := funext fun a => Fin.ext (by
    match a with
    | ⟨0, _⟩ => exact h10 (ix2 k q)
    | ⟨1, _⟩ => exact (h11 (ix2 k q)).trans (h21 (ix2 p q)).symm)
  rw [a0, a1]
  rfl

/-- A bias-row block: on rows o .. o + Mb, a pointwise f of the array's entry and the row's entry in that column. -/
theorem blk_row {Mb M N : ℕ} (f : EReal → EReal → EReal) (pay : (⟨2, ![Mb, N]⟩ : Shape).Idx → EReal)
    (x0 : (⟨2, ![Mb, N]⟩ : Shape).Idx → EReal) (x1 : (⟨2, ![1, N]⟩ : Shape).Idx → EReal)
    (hpay : ∀ (p : Fin Mb) (q : Fin N), pay (ix2 p q) = f (x0 (ix2 p q)) (x1 (ix2 (0 : Fin 1) q)))
    (A0 : (⟨2, ![M, N]⟩ : Shape).Idx → EReal) (A1 : (⟨2, ![1, N]⟩ : Shape).Idx → EReal)
    (e0 : (⟨2, ![Mb, N]⟩ : Shape).Idx → (⟨2, ![M, N]⟩ : Shape).Idx)
    (e1 : (⟨2, ![1, N]⟩ : Shape).Idx → (⟨2, ![1, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y))
    (h0 : ∀ y (a : Fin 2), ((e0 y) a).val = ((e2 y) a).val)
    (h11 : ∀ y, ((e1 y) 1).val = (y 1).val) (h21 : ∀ y, ((e2 y) 1).val = (y 1).val)
    (j : (⟨2, ![Mb, N]⟩ : Shape).Idx) : pay j = f (A0 (e2 j)) (A1 (ix2 (0 : Fin 1) ((e2 j) 1))) := by
  obtain ⟨p, q, rfl⟩ : ∃ (p : Fin Mb) (q : Fin N), j = ix2 p q := ⟨j 0, j 1, eq_ix2 j⟩
  rw [hpay, hx0, hx1]
  have a0 : e0 (ix2 p q) = e2 (ix2 p q) := funext fun a => Fin.ext (h0 (ix2 p q) a)
  have a1 : e1 (ix2 (0 : Fin 1) q) = ix2 (0 : Fin 1) ((e2 (ix2 p q)) 1) := funext fun a => Fin.ext (by
    match a with
    | ⟨0, _⟩ =>
      show ((e1 (ix2 (0 : Fin 1) q)) 0).val = 0
      exact Nat.lt_one_iff.mp ((e1 (ix2 (0 : Fin 1) q)) 0).isLt
    | ⟨1, _⟩ => exact (h11 (ix2 (0 : Fin 1) q)).trans (h21 (ix2 p q)).symm)
  rw [a0, a1]
  rfl

end Idealize.ShloMosaic.ValueIdx

end
-- ==== Proof.WaveletSpec.lean ====
/-
  The dense wavelet convolution as one function of its five argument arrays, at the extended reals.

  With n = 10000 nodes and 128 input and output features, for x : n x 128, the two dense basis operators
  phi0, phi1 : n x n, the weights W : 128 x 128 and the diagonal filter kern : n x 1,

    projected   (l, c) = Σ_d x (l, d) · W (d, c)
    transformed (j, c) = kern (j, 0) · Σ_l phi0 (j, l) · projected (l, c)
    output      (i, c) = max (Σ_j phi1 (i, j) · transformed (j, c)) 0.

  Every sum is a finite sum of extended reals in the order and grouping written here; nothing below moves a
  factor across a sum, so no entry needs to be finite.
-/
import proofs.«133985_g53661321397055_cont_9to1c4b_10_4_alg».proof.Proof.LibRowBlocks

noncomputable section

open scoped BigOperators

namespace Cert.WaveletConv

open Idealize.ShloMosaic Idealize.ShloMosaic.ValueIdx

/-- Row p of an n x d array multiplied by entry p of an n x 1 column (the column's entry on the left). -/
def scaleRows (n d : ℕ) (k : (⟨2, ![n, 1]⟩ : Shape).Idx → EReal) (a : (⟨2, ![n, d]⟩ : Shape).Idx → EReal) :
    (⟨2, ![n, d]⟩ : Shape).Idx → EReal :=
  fun i => k (ix2 (i 0) (0 : Fin 1)) * a i

/-- The entrywise maximum with zero. -/
def relu (n d : ℕ) (a : (⟨2, ![n, d]⟩ : Shape).Idx → EReal) : (⟨2, ![n, d]⟩ : Shape).Idx → EReal :=
  fun i => max (a i) 0

theorem scaleRows_ix2 (n d : ℕ) (k a) (p : Fin n) (q : Fin d) :
    scaleRows n d k a (ix2 p q) = k (ix2 p (0 : Fin 1)) * a (ix2 p q) := rfl

theorem relu_ix2 (n d : ℕ) (a) (p : Fin n) (q : Fin d) : relu n d a (ix2 p q) = max (a (ix2 p q)) 0 := rfl

/-- x · W. -/
def projected (x : (⟨2, ![10000, 128]⟩ : Shape).Idx → EReal) (w : (⟨2, ![128, 128]⟩ : Shape).Idx → EReal) :
    (⟨2, ![10000, 128]⟩ : Shape).Idx → EReal :=
  mm 10000 128 128 x w

/-- kern ⊙ (phi0 · xw), for any n x 128 array xw in the place of the projection. -/
def transformed (phi0 : (⟨2, ![10000, 10000]⟩ : Shape).Idx → EReal) (xw : (⟨2, ![10000, 128]⟩ : Shape).Idx → EReal)
    (kern : (⟨2, ![10000, 1]⟩ : Shape).Idx → EReal) : (⟨2, ![10000, 128]⟩ : Shape).Idx → EReal :=
  scaleRows 10000 128 kern (mm 10000 10000 128 phi0 xw)

/-- relu (phi1 · t), for any n x 128 array t in the place of the transformed features. -/
def activated (phi1 : (⟨2, ![10000, 10000]⟩ : Shape).Idx → EReal) (t : (⟨2, ![10000, 128]⟩ : Shape).Idx → EReal) :
    (⟨2, ![10000, 128]⟩ : Shape).Idx → EReal :=
  relu 10000 128 (mm 10000 10000 128 phi1 t)

/-- The whole convolution: relu (phi1 · (kern ⊙ (phi0 · (x · W)))). -/
def output (x : (⟨2, ![10000, 128]⟩ : Shape).Idx → EReal) (phi0 phi1 : (⟨2, ![10000, 10000]⟩ : Shape).Idx → EReal)
    (w : (⟨2, ![128, 128]⟩ : Shape).Idx → EReal) (kern : (⟨2, ![10000, 1]⟩ : Shape).Idx → EReal) :
    (⟨2, ![10000, 128]⟩ : Shape).Idx → EReal :=
  activated phi1 (transformed phi0 (projected x w) kern)

end Cert.WaveletConv

end
-- ==== Proof.ReferenceValue.lean ====
/-
  The reference program computes the dense wavelet convolution of WaveletSpec, stage by stage.

  Its five stages are read at an index (row, column): the three contractions are finite sums over the inner
  position, the filter column broadcast along the features reads the column's entry of that row, the product is
  entrywise, and the final maximum is against the zero word, which denotes 0.
-/
import proofs.«133985_g53661321397055_cont_9to1c4b_10_4_alg».proof.Proof.Gen.ReferenceIdeal.Read
import proofs.«133985_g53661321397055_cont_9to1c4b_10_4_alg».proof.Proof.WaveletSpec

noncomputable section

open scoped BigOperators

namespace Cert.ReferenceIdeal.RefValue

open Cert.ReferenceIdeal Cert.ReferenceIdeal.Gen Cert.ReferenceIdeal.Read Cert.WaveletConv
open Idealize.ShloMosaic Idealize.ShloMosaic.ValueIdx

/-- x · W: the first contraction, entry (l, c) the sum over the 128 input features. -/
theorem stage_projected (x0 : S10000x128.Idx → EReal) (x3 : S128x128.Idx → EReal) :
    val_main_v0 (F := Ideal) x0 x3 = projected x0 x3 := by
  funext i
  rw [val_main_v0_apply]
  show _ = ∑ k : Fin 128, x0 (ix2 (i 0) k) * x3 (ix2 k (i 1))
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

/-- phi0 · (x · W): the second contraction, over the 10000 nodes. -/
theorem stage_basis (x0 : S10000x128.Idx → EReal) (x1 : S10000x10000.Idx → EReal) (x3 : S128x128.Idx → EReal) :
    val_main_v1 (F := Ideal) x0 x1 x3 = mm 10000 10000 128 x1 (projected x0 x3) := by
  funext i
  rw [val_main_v1_apply, stage_projected]
  show _ = ∑ k : Fin 10000, x1 (ix2 (i 0) k) * projected x0 x3 (ix2 k (i 1))
  refine Finset.sum_congr rfl fun k _ => ?_
  have el : lidx_main_v1 i k = ix2 (i 0) k := funext fun a => Fin.ext (by
    match a with
    | ⟨0, _⟩ => rfl
    | ⟨1, _⟩ => rfl)
  have er : ridx_main_v1 i k = ix2 k (i 1) := funext fun a => Fin.ext (by
    match a with
    | ⟨0, _⟩ => rfl
    | ⟨1, _⟩ => rfl)
  rw [el, er]
  rfl

/-- kern ⊙ (phi0 · (x · W)): the filter column, broadcast along the features, times the transformed features. -/
theorem stage_transformed (x0 : S10000x128.Idx → EReal) (x1 : S10000x10000.Idx → EReal) (x3 : S128x128.Idx → EReal)
    (x4 : S10000x1.Idx → EReal) :
    val_main_v3 (F := Ideal) x0 x1 x3 x4 = transformed x1 (projected x0 x3) x4 := by
  funext i
  rw [val_main_v3_apply, val_main_v2_apply, stage_basis]
  have e : idx_main_v2 i = ix2 (i 0) (0 : Fin 1) := funext fun a => Fin.ext (by
    match a with
    | ⟨0, _⟩ => rfl
    | ⟨1, _⟩ => rfl)
  rw [e]
  rfl

/-- phi1 · (kern ⊙ …) and the maximum with zero. -/
theorem stage_output (x0 : S10000x128.Idx → EReal) (x1 x2 : S10000x10000.Idx → EReal) (x3 : S128x128.Idx → EReal)
    (x4 : S10000x1.Idx → EReal) :
    val_main_v5 (F := Ideal) x0 x1 x2 x3 x4 = output x0 x1 x2 x3 x4 := by
  funext i
  rw [val_main_v5_apply, val_main_call0_v0_apply, val_main_call0_cst_apply, val_main_v4_apply, stage_transformed]
  show max _ (Ideal.ofBits .f32 0x00000000#32) = max (∑ k : Fin 10000, x2 (ix2 (i 0) k) * transformed x1 (projected x0 x3) x4 (ix2 k (i 1))) 0
  rw [Ideal.ofBits_zero_f32]
  refine congrArg (fun s => max s (0 : EReal)) (Finset.sum_congr rfl fun k _ => ?_)
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

end Cert.ReferenceIdeal.RefValue

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayloads.lean ====
/-
  What each of the three kernel bodies stores, read at a (row, column) index at the extended reals.

  Each body loads whole blocks, forms one matrix-unit product into a zero accumulator and stores one value:
    first body   : the product                                  Σ_d a (p, d) · w (d, q)
    second body  : the filter block's column entry times it     k (p, 0) · Σ_l a (p, l) · v (l, q)
    third body   : its maximum with the zero word               max (Σ_j a (p, j) · v (j, q)) 0
  The product of an M x K block with a K x N array contracts the block's second axis with the array's first and
  batches nothing, so its entry (p, q) is the sum over the inner position.
-/
import proofs.«133985_g53661321397055_cont_9to1c4b_10_4_alg».proof.Proof.Gen.KernelIdeal.Skeleton
import proofs.«133985_g53661321397055_cont_9to1c4b_10_4_alg».proof.Proof.LibDotIx2
import proofs.«133985_g53661321397055_cont_9to1c4b_10_4_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

/-- The 10000 x 128 by 128 x 128 product's dimension numbers are a plain product's. -/
theorem plain_proj : PlainDot (M := 10000) (K := 128) (N := 128) dot_S10000x128_S128x128_S10000x128_1_0_0_1_n_n where
  rank := rfl
  size := rfl
  l0 := fun j q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  l1 := fun j q => dot_S10000x128_S128x128_S10000x128_1_0_0_1_n_n.lhsIdx_val_of_single rfl j q
  r0 := fun j q => dot_S10000x128_S128x128_S10000x128_1_0_0_1_n_n.rhsIdx_val_of_single rfl j q
  r1 := fun j q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- The 400 x 10000 by 10000 x 128 product's dimension numbers are a plain product's. -/
theorem plain_rows : PlainDot (M := 400) (K := 10000) (N := 128) dot_S400x10000_S10000x128_S400x128_1_0_0_1_n_n where
  rank := rfl
  size := rfl
  l0 := fun j q => by
    unfold DotDims.lhsIdx
    rw [dif_neg (show ¬(0 : Fin S400x10000.rank) ∈ dot_S400x10000_S10000x128_S400x128_1_0_0_1_n_n.lhsBatch by decide),
      dif_pos (show (0 : Fin S400x10000.rank) ∈ dot_S400x10000_S10000x128_S400x128_1_0_0_1_n_n.lhsNonContracting by decide)]
    rfl
  l1 := fun j q => dot_S400x10000_S10000x128_S400x128_1_0_0_1_n_n.lhsIdx_val_of_single rfl j q
  r0 := fun j q => dot_S400x10000_S10000x128_S400x128_1_0_0_1_n_n.rhsIdx_val_of_single rfl j q
  r1 := fun j q => by
    unfold DotDims.rhsIdx
    rw [dif_neg (show ¬(1 : Fin S10000x128.rank) ∈ dot_S400x10000_S10000x128_S400x128_1_0_0_1_n_n.rhsBatch by decide),
      dif_pos (show (1 : Fin S10000x128.rank) ∈ dot_S400x10000_S10000x128_S400x128_1_0_0_1_n_n.rhsNonContracting by decide)]
    rfl

/-- The first body stores x · W of its two blocks. -/
theorem proj_pay (a : Vec Ideal S10000x128 .f32) (w : Vec Ideal S128x128 .f32) (p : Fin 10000) (q : Fin 128) :
    k0_pay1 (F := Ideal) a w (ix2 p q) = ∑ d : Fin 128, (a (ix2 p d) : EReal) * (w (ix2 d q) : EReal) := by
  unfold k0_pay1
  exact matmul_zero_ix2_any plain_proj none a w p q

/-- The second body stores, in row p, the filter block's entry of that row times the row of (block · v). -/
theorem scale_pay (k : Vec Ideal S400x1 .f32) (a : Vec Ideal S400x10000 .f32) (v : Vec Ideal S10000x128 .f32)
    (p : Fin 400) (q : Fin 128) :
    k1_pay1 (F := Ideal) k a v (ix2 p q)
      = (k (ix2 p (0 : Fin 1)) : EReal) * ∑ l : Fin 10000, (a (ix2 p l) : EReal) * (v (ix2 l q) : EReal) := by
  unfold k1_pay1
  show mulf (broadcastTo S400x128 k broadcasts_S400x1_S400x128)
      (matmul dot_S400x10000_S10000x128_S400x128_1_0_0_1_n_n none a
        (shapeCast S10000x128 v shapeCasts_S10000x128_S10000x128 : FVec Ideal S10000x128 .f32) (constant S400x128 .f32 0x00000000#32)) (ix2 p q) = _
  rw [mulf_apply, shapeCast_self, broadcastTo_a1_ab_apply]
  exact congrArg (fun s => (k (ix2 p (0 : Fin 1)) : EReal) * s) (matmul_zero_ix2_any plain_rows none a v p q)

/-- The third body stores the maximum of (block · v) with zero. -/
theorem relu_pay (a : Vec Ideal S400x10000 .f32) (v : Vec Ideal S10000x128 .f32) (p : Fin 400) (q : Fin 128) :
    k2_pay1 (F := Ideal) a v (ix2 p q)
      = max (∑ j : Fin 10000, (a (ix2 p j) : EReal) * (v (ix2 j q) : EReal)) 0 := by
  unfold k2_pay1
  show maximumf (matmul dot_S400x10000_S10000x128_S400x128_1_0_0_1_n_n none a
        (shapeCast S10000x128 v shapeCasts_S10000x128_S10000x128 : FVec Ideal S10000x128 .f32) (constant S400x128 .f32 0x00000000#32))
      (broadcast S400x128 (Ideal.ofBits .f32 0x00000000#32)) (ix2 p q) = _
  rw [maximumf_apply, shapeCast_self, broadcast_apply, Ideal.ofBits_zero_f32]
  exact congrArg (fun s => max s (0 : EReal)) (matmul_zero_ix2_any plain_rows none a v p q)

end Cert.KernelIdeal.Payloads

end
-- ==== Proof.KernelBlocks.lean ====
/-
  A stored block is the block of the whole-array stage.

  The second and third pipelines cut the rows of their streamed operand into 25 blocks of 400; at a point whose block
  starts at row o the body sees rows o .. o + 400 of the streamed operator (all 10000 columns), the whole 10000 x 128
  second operand, and — in the second pipeline — rows o .. o + 400 of the filter column.  What it stores is then rows
  o .. o + 400 of the stage of WaveletSpec applied to the whole arrays.  The first pipeline has one point and whole
  blocks: the same statement with o = 0.

  The loaded blocks enter only as functions that read their arrays through some embedding of indices, and the
  embeddings only through their coordinates, so the lemmas are stated over variables and instantiated later at the
  pipelines' windows.
-/
import proofs.«133985_g53661321397055_cont_9to1c4b_10_4_alg».proof.Proof.KernelPayloads
import proofs.«133985_g53661321397055_cont_9to1c4b_10_4_alg».proof.Proof.WaveletSpec

noncomputable section

open scoped BigOperators

namespace Cert.KernelIdeal.Blocks

open Cert.KernelIdeal Cert.KernelIdeal.Gen Cert.KernelIdeal.Payloads Cert.WaveletConv
open Idealize.ShloMosaic Idealize.ShloMosaic.ValueIdx

/-- The first body's stored array is x · W. -/
theorem proj_block (a : Vec Ideal S10000x128 .f32) (w : Vec Ideal S128x128 .f32)
    (X : S10000x128.Idx → EReal) (Wt : S128x128.Idx → EReal)
    (e0 : S10000x128.Idx → S10000x128.Idx) (e1 : S128x128.Idx → S128x128.Idx) (e2 : S10000x128.Idx → S10000x128.Idx)
    (ha : ∀ y, a y = X (e0 y)) (hw : ∀ y, w y = Wt (e1 y))
    (h00 : ∀ y, ((e0 y) 0).val = 0 + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = 0 + (y 0).val) (h21 : ∀ y, ((e2 y) 1).val = (y 1).val)
    (j : S10000x128.Idx) : k0_pay1 (F := Ideal) a w j = projected X Wt (e2 j) :=
  blk_mm (Mb := 10000) (M := 10000) (K := 128) (N := 128) (k0_pay1 (F := Ideal) a w) a w (proj_pay a w)
    X Wt e0 e1 e2 ha hw 0 h00 h01 h10 h11 h20 h21 j

/-- The second body's stored block is rows o .. o + 400 of kern ⊙ (phi0 · xw). -/
theorem scale_block (k : Vec Ideal S400x1 .f32) (a : Vec Ideal S400x10000 .f32) (v : Vec Ideal S10000x128 .f32)
    (Phi : S10000x10000.Idx → EReal) (Xw : S10000x128.Idx → EReal) (Kern : S10000x1.Idx → EReal)
    (e0 : S400x10000.Idx → S10000x10000.Idx) (e1 : S10000x128.Idx → S10000x128.Idx)
    (e2 : S400x1.Idx → S10000x1.Idx) (e3 : S400x128.Idx → S10000x128.Idx)
    (ha : ∀ y, a y = Phi (e0 y)) (hv : ∀ y, v y = Xw (e1 y)) (hk : ∀ y, k y = Kern (e2 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val)
    (h30 : ∀ y, ((e3 y) 0).val = o + (y 0).val) (h31 : ∀ y, ((e3 y) 1).val = (y 1).val)
    (j : S400x128.Idx) : k1_pay1 (F := Ideal) k a v j = transformed Phi Xw Kern (e3 j) := by
  obtain ⟨p, q, rfl⟩ : ∃ (p : Fin 400) (q : Fin 128), j = ix2 p q := ⟨j 0, j 1, eq_ix2 j⟩
  rw [scale_pay, hk]
  have ek : e2 (ix2 p (0 : Fin 1)) = ix2 ((e3 (ix2 p q)) 0) (0 : Fin 1) := funext fun ax => Fin.ext (by
    match ax with
    | ⟨0, _⟩ => exact (h20 (ix2 p (0 : Fin 1))).trans (h30 (ix2 p q)).symm
    | ⟨1, _⟩ =>
      show ((e2 (ix2 p (0 : Fin 1))) 1).val = 0
      exact Nat.lt_one_iff.mp ((e2 (ix2 p (0 : Fin 1))) 1).isLt)
  have es : (∑ l : Fin 10000, (a (ix2 p l) : EReal) * (v (ix2 l q) : EReal)) = mm 10000 10000 128 Phi Xw (e3 (ix2 p q)) :=
    blk_mm (Mb := 400) (M := 10000) (K := 10000) (N := 128)
      (fun i => ∑ l : Fin 10000, (a (ix2 (i 0) l) : EReal) * (v (ix2 l (i 1)) : EReal)) a v (fun _ _ => rfl)
      Phi Xw e0 e1 e3 ha hv o h00 h01 h10 h11 h30 h31 (ix2 p q)
  rw [ek, es]
  rfl

/-- The third body's stored block is rows o .. o + 400 of relu (phi1 · t). -/
theorem relu_block (a : Vec Ideal S400x10000 .f32) (v : Vec Ideal S10000x128 .f32)
    (Phi : S10000x10000.Idx → EReal) (Tr : S10000x128.Idx → EReal)
    (e0 : S400x10000.Idx → S10000x10000.Idx) (e1 : S10000x128.Idx → S10000x128.Idx) (e2 : S400x128.Idx → S10000x128.Idx)
    (ha : ∀ y, a y = Phi (e0 y)) (hv : ∀ y, v y = Tr (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : S400x128.Idx) : k2_pay1 (F := Ideal) a v j = activated Phi Tr (e2 j) := by
  obtain ⟨p, q, rfl⟩ : ∃ (p : Fin 400) (q : Fin 128), j = ix2 p q := ⟨j 0, j 1, eq_ix2 j⟩
  rw [relu_pay]
  have es : (∑ l : Fin 10000, (a (ix2 p l) : EReal) * (v (ix2 l q) : EReal)) = mm 10000 10000 128 Phi Tr (e2 (ix2 p q)) :=
    blk_mm (Mb := 400) (M := 10000) (K := 10000) (N := 128)
      (fun i => ∑ l : Fin 10000, (a (ix2 (i 0) l) : EReal) * (v (ix2 l (i 1)) : EReal)) a v (fun _ _ => rfl)
      Phi Tr e0 e1 e2 ha hv o h00 h01 h10 h11 h20 h21 (ix2 p q)
  rw [es]
  rfl

end Cert.KernelIdeal.Blocks

end
-- ==== Proof.Region0.lean ====
/-
  The first pipeline (one point, whole blocks), at any contents V of the buffers when it is entered.

  Every window is its whole array at block (0, 0): the body sees x and W whole and its one write-back is the whole
  result.  So the result array ends holding projected x W (WaveletSpec) of the arrays as the pipeline finds them.
-/
import proofs.«133985_g53661321397055_cont_9to1c4b_10_4_alg».proof.Proof.Gen.KernelIdeal.Frame
import proofs.«133985_g53661321397055_cont_9to1c4b_10_4_alg».proof.Proof.KernelBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.Blocks Cert.WaveletConv Idealize.ShloMosaic.ValueIdx

variable (V : (c : Dev nD) → (b : Ref sig .tc) → Buf (Elt Ideal) ((c : Thread nD τ).loc b))

/-- Every window is at block (0, 0) at the one point. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is the whole stage of the arrays as the pipeline finds them. -/
theorem flushed_eq (c : Dev nD) (t : Fin cfg0.N) :
    (dat0 V c).flushed 2 t
      = ((cfg0.win 2).blk t).view.read (Elt Ideal) (projected (V c main_arg0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x128) hz2]
  obtain ⟨a00, a01, a10, a11, a20, a21⟩ := block_index t
  funext j
  show k0_pay1 (F := Ideal) (iblk0 V c 0 t) (iblk0 V c 1 t) j
    = projected (V c main_arg0) (V c main_arg3) (((cfg0.win 2).blk t).view.emb j)
  refine proj_block (iblk0 V c 0 t) (iblk0 V c 1 t) (V c main_arg0) (V c main_arg3)
    ((cfg0.win 0).blk t).view.emb ((cfg0.win 1).blk t).view.emb ((cfg0.win 2).blk t).view.emb
    (fun y => rfl) (fun y => rfl) ?_ ?_ ?_ ?_ ?_ ?_ j
  · intro y
    show win0_0.index t (0 : Fin 2) * 10000 + 1 * (y 0).val = 0 + (y 0).val
    rw [a00]; omega
  · intro y
    show win0_0.index t (1 : Fin 2) * 128 + 1 * (y 1).val = (y 1).val
    rw [a01]; omega
  · intro y
    show win0_1.index t (0 : Fin 2) * 128 + 1 * (y 0).val = (y 0).val
    rw [a10]; omega
  · intro y
    show win0_1.index t (1 : Fin 2) * 128 + 1 * (y 1).val = (y 1).val
    rw [a11]; omega
  · intro y
    show win0_2.index t (0 : Fin 2) * 10000 + 1 * (y 0).val = 0 + (y 0).val
    rw [a20]; omega
  · intro y
    show win0_2.index t (1 : Fin 2) * 128 + 1 * (y 1).val = (y 1).val
    rw [a21]; omega

/-- An index of the result array is in the point's block iff each coordinate is in the block's range on its axis. -/
theorem mem_block (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The one point's block is the whole array. -/
theorem covered (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, a20, a21⟩ := block_index t0_0
  refine ⟨t0_0, flush0_2 _, ?_⟩
  rw [mem_block]
  intro a
  match a with
  | ⟨0, _⟩ =>
    show win0_2.index t0_0 (0 : Fin 2) * 10000 ≤ (i 0).val ∧ (i 0).val < win0_2.index t0_0 (0 : Fin 2) * 10000 + 10000
    rw [a20]
    omega
  | ⟨1, _⟩ =>
    show win0_2.index t0_0 (1 : Fin 2) * 128 ≤ (i 1).val ∧ (i 1).val < win0_2.index t0_0 (1 : Fin 2) * 128 + 128
    rw [a21]
    omega

/-- The result array after the pipeline: the stage of the arrays as the pipeline finds them. -/
theorem arr_eq (c : Dev nD) :
    (dat0 V c).arrAt 2 cfg0.N = projected (V c main_arg0) (V c main_arg3) :=
  (dat0 V c).arrAt_eq_of_cover 2 _ (fun t _ => flushed_eq V c t) covered

end Cert.KernelIdeal.Region0

end
-- ==== Proof.Region1.lean ====
/-
  The second pipeline (25 points, 400 rows each), at any contents V of the buffers when it is entered.

  At point t the streamed operator's window is rows 400 t .. 400 t + 400 of phi0, the filter's window the same rows of
  the filter column, the second operand's window the whole projected array, and the output's window rows
  400 t .. 400 t + 400 of the result.  So what point t writes back is block t of
  transformed phi0 xw kern (WaveletSpec) of the arrays as the pipeline finds them; the 25 blocks tile the 10000 rows,
  and the result array ends holding that function.
-/
import proofs.«133985_g53661321397055_cont_9to1c4b_10_4_alg».proof.Proof.Gen.KernelIdeal.Frame
import proofs.«133985_g53661321397055_cont_9to1c4b_10_4_alg».proof.Proof.KernelBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.Blocks Cert.WaveletConv Idealize.ShloMosaic.ValueIdx

variable (V : (c : Dev nD) → (b : Ref sig .tc) → Buf (Elt Ideal) ((c : Thread nD τ).loc b))

/-- The block index of each window at each of the 25 points: the row-blocked windows are at block (t, 0), the whole
    second operand at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the stage of the arrays as the pipeline finds them. -/
theorem flushed_eq (c : Dev nD) (t : Fin cfg1.N) :
    (dat1 V c).flushed 3 t
      = ((cfg1.win 3).blk t).view.read (Elt Ideal) (transformed (V c main_arg1) (V c main_v0) (V c main_arg4)) := by
  show (cfg1.win 3).cut (grid1.coords t) ((dat1 V c).after 3 t) = _
  rw [after1_3]
  unfold out1_3
  rw [View.canon_unit_zero hz2]
  simp only [View.ld_unit_zero (S := S400x10000) hz2, View.ld_unit_zero (S := S10000x128) hz2,
    View.ld_unit_zero (S := S400x1) hz2]
  obtain ⟨a00, a01, a10, a11, a20, a21, a30, a31⟩ := block_index t
  funext j
  show k1_pay1 (F := Ideal) (iblk1 V c 2 t) (iblk1 V c 0 t) (iblk1 V c 1 t) j
    = transformed (V c main_arg1) (V c main_v0) (V c main_arg4) (((cfg1.win 3).blk t).view.emb j)
  refine scale_block (iblk1 V c 2 t) (iblk1 V c 0 t) (iblk1 V c 1 t) (V c main_arg1) (V c main_v0) (V c main_arg4)
    ((cfg1.win 0).blk t).view.emb ((cfg1.win 1).blk t).view.emb ((cfg1.win 2).blk t).view.emb
    ((cfg1.win 3).blk t).view.emb (fun y => rfl) (fun y => rfl) (fun y => rfl) (400 * t.val) ?_ ?_ ?_ ?_ ?_ ?_ ?_ j
  · intro y
    show win1_0.index t (0 : Fin 2) * 400 + 1 * (y 0).val = 400 * t.val + (y 0).val
    rw [a00]; omega
  · intro y
    show win1_0.index t (1 : Fin 2) * 10000 + 1 * (y 1).val = (y 1).val
    rw [a01]; omega
  · intro y
    show win1_1.index t (0 : Fin 2) * 10000 + 1 * (y 0).val = (y 0).val
    rw [a10]; omega
  · intro y
    show win1_1.index t (1 : Fin 2) * 128 + 1 * (y 1).val = (y 1).val
    rw [a11]; omega
  · intro y
    show win1_2.index t (0 : Fin 2) * 400 + 1 * (y 0).val = 400 * t.val + (y 0).val
    rw [a20]; omega
  · intro y
    show win1_3.index t (0 : Fin 2) * 400 + 1 * (y 0).val = 400 * t.val + (y 0).val
    rw [a30]; omega
  · intro y
    show win1_3.index t (1 : Fin 2) * 128 + 1 * (y 1).val = (y 1).val
    rw [a31]; omega

/-- An index of the result array is in point t's block iff each coordinate is in the block's range on its axis. -/
theorem mem_block (t : Fin cfg1.N) (i : S10000x128.Idx) :
    i ∈ ((cfg1.win 3).blk t).view.set ↔ ∀ a : Fin 2, win1_3.index t a * S400x128.size a ≤ (i a).val
      ∧ (i a).val < win1_3.index t a * S400x128.size a + S400x128.size a := by
  show i ∈ ((View.whole main_v1).slice (win1_3.rect t)).set ↔ _
  rw [View.set_slice_whole, Rect.mem_set_unit]
  exact Iff.rfl

/-- Row r of the result is in the block of point r / 400. -/
theorem covered (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 25 := N_1
  have ht : (i 0).val / 400 < cfg1.N := by rw [hN]; omega
  obtain ⟨-, -, -, -, -, -, a30, a31⟩ := block_index ⟨(i 0).val / 400, ht⟩
  refine ⟨⟨(i 0).val / 400, ht⟩, flush1_3 _, ?_⟩
  rw [mem_block]
  intro a
  match a with
  | ⟨0, _⟩ =>
    show win1_3.index ⟨(i 0).val / 400, ht⟩ (0 : Fin 2) * 400 ≤ (i 0).val
      ∧ (i 0).val < win1_3.index ⟨(i 0).val / 400, ht⟩ (0 : Fin 2) * 400 + 400
    rw [a30]
    show (i 0).val / 400 * 400 ≤ (i 0).val ∧ (i 0).val < (i 0).val / 400 * 400 + 400
    omega
  | ⟨1, _⟩ =>
    show win1_3.index ⟨(i 0).val / 400, ht⟩ (1 : Fin 2) * 128 ≤ (i 1).val
      ∧ (i 1).val < win1_3.index ⟨(i 0).val / 400, ht⟩ (1 : Fin 2) * 128 + 128
    rw [a31]
    omega

/-- The result array after the pipeline: the stage of the arrays as the pipeline finds them. -/
theorem arr_eq (c : Dev nD) :
    (dat1 V c).arrAt 3 cfg1.N = transformed (V c main_arg1) (V c main_v0) (V c main_arg4) :=
  (dat1 V c).arrAt_eq_of_cover 3 _ (fun t _ => flushed_eq V c t) covered

end Cert.KernelIdeal.Region1

end
-- ==== Proof.Region2.lean ====
/-
  The third pipeline (25 points, 400 rows each), at any contents V of the buffers when it is entered.

  At point t the streamed operator's window is rows 400 t .. 400 t + 400 of phi1, the second operand's window the whole
  array of transformed features, and the output's window rows 400 t .. 400 t + 400 of the result.  So what point t
  writes back is block t of activated phi1 t (WaveletSpec) of the arrays as the pipeline finds them; the 25 blocks
  tile the 10000 rows, and the result array ends holding that function.
-/
import proofs.«133985_g53661321397055_cont_9to1c4b_10_4_alg».proof.Proof.Gen.KernelIdeal.Frame
import proofs.«133985_g53661321397055_cont_9to1c4b_10_4_alg».proof.Proof.KernelBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.KernelIdeal.Blocks Cert.WaveletConv Idealize.ShloMosaic.ValueIdx

variable (V : (c : Dev nD) → (b : Ref sig .tc) → Buf (Elt Ideal) ((c : Thread nD τ).loc b))

/-- The block index of each window at each of the 25 points: the row-blocked windows are at block (t, 0), the whole
    second operand at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the stage of the arrays as the pipeline finds them. -/
theorem flushed_eq (c : Dev nD) (t : Fin cfg2.N) :
    (dat2 V c).flushed 2 t
      = ((cfg2.win 2).blk t).view.read (Elt Ideal) (activated (V c main_arg2) (V c main_v1)) := by
  show (cfg2.win 2).cut (grid2.coords t) ((dat2 V c).after 2 t) = _
  rw [after2_2]
  unfold out2_2
  rw [View.canon_unit_zero hz2]
  simp only [View.ld_unit_zero (S := S400x10000) hz2, View.ld_unit_zero (S := S10000x128) hz2]
  obtain ⟨a00, a01, a10, a11, a20, a21⟩ := block_index t
  funext j
  show k2_pay1 (F := Ideal) (iblk2 V c 0 t) (iblk2 V c 1 t) j
    = activated (V c main_arg2) (V c main_v1) (((cfg2.win 2).blk t).view.emb j)
  refine relu_block (iblk2 V c 0 t) (iblk2 V c 1 t) (V c main_arg2) (V c main_v1)
    ((cfg2.win 0).blk t).view.emb ((cfg2.win 1).blk t).view.emb ((cfg2.win 2).blk t).view.emb
    (fun y => rfl) (fun y => rfl) (400 * t.val) ?_ ?_ ?_ ?_ ?_ ?_ j
  · intro y
    show win2_0.index t (0 : Fin 2) * 400 + 1 * (y 0).val = 400 * t.val + (y 0).val
    rw [a00]; omega
  · intro y
    show win2_0.index t (1 : Fin 2) * 10000 + 1 * (y 1).val = (y 1).val
    rw [a01]; omega
  · intro y
    show win2_1.index t (0 : Fin 2) * 10000 + 1 * (y 0).val = (y 0).val
    rw [a10]; omega
  · intro y
    show win2_1.index t (1 : Fin 2) * 128 + 1 * (y 1).val = (y 1).val
    rw [a11]; omega
  · intro y
    show win2_2.index t (0 : Fin 2) * 400 + 1 * (y 0).val = 400 * t.val + (y 0).val
    rw [a20]; omega
  · intro y
    show win2_2.index t (1 : Fin 2) * 128 + 1 * (y 1).val = (y 1).val
    rw [a21]; omega

/-- An index of the result array is in point t's block iff each coordinate is in the block's range on its axis. -/
theorem mem_block (t : Fin cfg2.N) (i : S10000x128.Idx) :
    i ∈ ((cfg2.win 2).blk t).view.set ↔ ∀ a : Fin 2, win2_2.index t a * S400x128.size a ≤ (i a).val
      ∧ (i a).val < win2_2.index t a * S400x128.size a + S400x128.size a := by
  show i ∈ ((View.whole main_v2).slice (win2_2.rect t)).set ↔ _
  rw [View.set_slice_whole, Rect.mem_set_unit]
  exact Iff.rfl

/-- Row r of the result is in the block of point r / 400. -/
theorem covered (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  have hN : cfg2.N = 25 := N_2
  have ht : (i 0).val / 400 < cfg2.N := by rw [hN]; omega
  obtain ⟨-, -, -, -, a20, a21⟩ := block_index ⟨(i 0).val / 400, ht⟩
  refine ⟨⟨(i 0).val / 400, ht⟩, flush2_2 _, ?_⟩
  rw [mem_block]
  intro a
  match a with
  | ⟨0, _⟩ =>
    show win2_2.index ⟨(i 0).val / 400, ht⟩ (0 : Fin 2) * 400 ≤ (i 0).val
      ∧ (i 0).val < win2_2.index ⟨(i 0).val / 400, ht⟩ (0 : Fin 2) * 400 + 400
    rw [a20]
    show (i 0).val / 400 * 400 ≤ (i 0).val ∧ (i 0).val < (i 0).val / 400 * 400 + 400
    omega
  | ⟨1, _⟩ =>
    show win2_2.index ⟨(i 0).val / 400, ht⟩ (1 : Fin 2) * 128 ≤ (i 1).val
      ∧ (i 1).val < win2_2.index ⟨(i 0).val / 400, ht⟩ (1 : Fin 2) * 128 + 128
    rw [a21]
    omega

/-- The result array after the pipeline: the stage of the arrays as the pipeline finds them. -/
theorem arr_eq (c : Dev nD) :
    (dat2 V c).arrAt 2 cfg2.N = activated (V c main_arg2) (V c main_v1) :=
  (dat2 V c).arrAt_eq_of_cover 2 _ (fun t _ => flushed_eq V c t) covered

end Cert.KernelIdeal.Region2

end
-- ==== Proof.KernelRun.lean ====
/-
  The idealized kernel's run, with its result array named.

  @main is three pipelines in sequence.  The buffers' contents at the four boundaries are a fold from the launch
  memory: each pipeline leaves its own arrays at what its write-backs leave and every other buffer as it found it.
  Reading the fold at the result buffer:

    after the third pipeline   the result holds  activated phi1 t        (t the second pipeline's result as entered)
    after the second pipeline  t          holds  transformed phi0 xw k   (xw the first pipeline's result as entered)
    after the first pipeline   xw         holds  projected x W

  and each argument array is read by every pipeline as launched, since no pipeline writes an argument.  Composed,
  the result is the dense wavelet convolution of WaveletSpec of the five arguments as launched.
-/
import proofs.«133985_g53661321397055_cont_9to1c4b_10_4_alg».proof.Proof.Gen.KernelIdeal.Frame
import proofs.«133985_g53661321397055_cont_9to1c4b_10_4_alg».proof.Proof.Region0
import proofs.«133985_g53661321397055_cont_9to1c4b_10_4_alg».proof.Proof.Region1
import proofs.«133985_g53661321397055_cont_9to1c4b_10_4_alg».proof.Proof.Region2

set_option maxRecDepth 16384

noncomputable section

namespace Cert.KernelIdeal.Run

open Cert.KernelIdeal Cert.KernelIdeal.Gen Cert.WaveletConv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the three pipelines' segments, the last thread state read
    against the final memory at the result buffer as well as at the arguments. -/
theorem run_boundary : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Launch

section Value

variable (m : (ℓ : Loc nD τ sig) → Buf (Elt Ideal) ℓ) (ρ : Dev nD → PrngReg)

/-- The first pipeline's result, as the second pipeline finds it: x · W of the arguments as launched. -/
theorem projected_at_entry1 (c : Dev nD) :
    V1 m ρ c main_v0
      = projected (m ((c.tc : Thread nD τ).loc main_arg0)) (m ((c.tc : Thread nD τ).loc main_arg3)) :=
  (W1_arr m ρ c 2).trans (Region0.arr_eq (V0 m ρ) c)

/-- The second pipeline's result, as the third pipeline finds it: kern ⊙ (phi0 · (x · W)) of the arguments as launched. -/
theorem transformed_at_entry2 (c : Dev nD) :
    V2 m ρ c main_v1
      = transformed (m ((c.tc : Thread nD τ).loc main_arg1))
          (projected (m ((c.tc : Thread nD τ).loc main_arg0)) (m ((c.tc : Thread nD τ).loc main_arg3)))
          (m ((c.tc : Thread nD τ).loc main_arg4)) := by
  have h : V2 m ρ c main_v1 = transformed (V1 m ρ c main_arg1) (V1 m ρ c main_v0) (V1 m ρ c main_arg4) :=
    (W2_arr m ρ c 3).trans (Region1.arr_eq (V1 m ρ) c)
  have e1 : V1 m ρ c main_arg1 = m ((c.tc : Thread nD τ).loc main_arg1) := W1_of_ne m ρ c main_arg1 (by decide)
  have e4 : V1 m ρ c main_arg4 = m ((c.tc : Thread nD τ).loc main_arg4) := W1_of_ne m ρ c main_arg4 (by decide)
  rw [h, e1, e4, projected_at_entry1]

/-- The result buffer at the last boundary: the dense wavelet convolution of the arguments as launched. -/
theorem result_at_exit (c : Dev nD) :
    W3 m ρ c (Proc.devRef .tc main_v2)
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have h : W3 m ρ c (Proc.devRef .tc main_v2) = activated (V2 m ρ c main_arg2) (V2 m ρ c main_v1) :=
    (W3_arr m ρ c 2).trans (Region2.arr_eq (V2 m ρ) c)
  have e2 : V2 m ρ c main_arg2 = m ((c.tc : Thread nD τ).loc main_arg2) :=
    (W2_of_ne m ρ c main_arg2 (by decide)).trans (W1_of_ne m ρ c main_arg2 (by decide))
  rw [h, e2, transformed_at_entry2]
  rfl

/-- The run, read: the result array at the dense wavelet convolution of the arguments, the arguments unchanged. -/
theorem run : θ_run defs (onTc (τ := τ) (main (F := Ideal))) ⟨m, fun _ => 0, ρ⟩ (fun r => ∀ c : Dev nD,
      r.2.mem ((c.tc : Thread nD τ).loc main_v2)
        = output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_at_exit m ρ c), (h c).2⟩) (run_boundary m ρ)

end Value

end Cert.KernelIdeal.Run

end
-- ==== Proof.lean ====
/-
  The dense wavelet convolution kernel against its reference, over the extended reals.

  Both programs compute, for x : 10000 x 128, dense operators phi0, phi1 : 10000 x 10000, weights W : 128 x 128 and a
  filter column kern : 10000 x 1,

      out (i, c) = max (Σ_j phi1 (i, j) · (kern (j, 0) · Σ_l phi0 (j, l) · Σ_d x (l, d) · W (d, c))) 0.

  The kernel does it in three pipelines — x · W whole; then phi0 streamed in 25 blocks of 400 rows, each block's
  product scaled by the filter's entries of those rows; then phi1 streamed the same way, each block's product cut at
  zero — and the reference in one line of whole-array operations.  At the extended reals a matrix-unit product into a
  zero accumulator and the host's contraction are the same finite sum, a change of float format is the identity, and
  cutting the rows into blocks changes no entry; the two sides are the same sums in the same order and grouping, so the
  equality needs no finiteness of the inputs.

  The pieces: WaveletSpec (the function), ReferenceValue (the reference computes it), KernelPayloads and KernelBlocks
  (each body's stored block is a block of a stage of it), Region0 / Region1 / Region2 (each pipeline's result array is
  that stage of the arrays it finds), KernelRun (the run, with the result named).  The idealization rewrote nothing, so
  the kernel and its idealization are one text read at two instances.
-/
import proofs.«133985_g53661321397055_cont_9to1c4b_10_4_alg».proof.Defs
import proofs.«133985_g53661321397055_cont_9to1c4b_10_4_alg».proof.Proof.Gen.Kernel
import proofs.«133985_g53661321397055_cont_9to1c4b_10_4_alg».proof.Proof.Gen.Kernel.Skeleton
import proofs.«133985_g53661321397055_cont_9to1c4b_10_4_alg».proof.Proof.Gen.Kernel.Launch
import proofs.«133985_g53661321397055_cont_9to1c4b_10_4_alg».proof.Proof.Gen.Kernel.Points
import proofs.«133985_g53661321397055_cont_9to1c4b_10_4_alg».proof.Proof.Gen.Kernel.Frame
import proofs.«133985_g53661321397055_cont_9to1c4b_10_4_alg».proof.Proof.Gen.KernelIdeal
import proofs.«133985_g53661321397055_cont_9to1c4b_10_4_alg».proof.Proof.Gen.KernelIdeal.Skeleton
import proofs.«133985_g53661321397055_cont_9to1c4b_10_4_alg».proof.Proof.Gen.KernelIdeal.Launch
import proofs.«133985_g53661321397055_cont_9to1c4b_10_4_alg».proof.Proof.Gen.KernelIdeal.Points
import proofs.«133985_g53661321397055_cont_9to1c4b_10_4_alg».proof.Proof.Gen.KernelIdeal.Frame
import proofs.«133985_g53661321397055_cont_9to1c4b_10_4_alg».proof.Proof.Gen.ReferenceIdeal
import proofs.«133985_g53661321397055_cont_9to1c4b_10_4_alg».proof.Proof.Gen.ReferenceIdeal.Run
import proofs.«133985_g53661321397055_cont_9to1c4b_10_4_alg».proof.Proof.Gen.ReferenceIdeal.Read
import proofs.«133985_g53661321397055_cont_9to1c4b_10_4_alg».proof.Proof.Gen.Pre_finite_inputs
import proofs.«133985_g53661321397055_cont_9to1c4b_10_4_alg».proof.Proof.ReferenceValue
import proofs.«133985_g53661321397055_cont_9to1c4b_10_4_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array holding the dense wavelet
    convolution of those arguments: the kernel by its three pipelines, the reference by its five stages. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v5_eq _ _ _ _ _).trans (Cert.ReferenceIdeal.RefValue.stage_output _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
